-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S1600000 32) (main_arg2 : IVec S1600000 32) (main_arg3 : FVec F S64x128 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S1600000 : Shape := ⟨1, ![1600000]⟩
abbrev S64x128 : Shape := ⟨2, ![64, 128]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S64x64 : Shape := ⟨2, ![64, 64]⟩
abbrev S1x64 : Shape := ⟨2, ![1, 64]⟩
abbrev S5000x64 : Shape := ⟨2, ![5000, 64]⟩

abbrev nBuf : Space → Nat
  | .hbm => 24
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x128, .f32⟩
  | .hbm, ⟨4, _⟩ => ⟨S64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .f32⟩
  | .hbm, ⟨15, _⟩ => ⟨S100000x64, .f32⟩
  | .hbm, ⟨16, _⟩ => ⟨S1600000x1, .i32⟩
  | .hbm, ⟨17, _⟩ => ⟨S100000x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S1x64, .f32⟩
  | .hbm, ⟨23, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S64x128_S64x64_0_0 : S64x128.Slices ![0, 0] S64x64
  transposes_S64x64_S64x64_1_0 : S64x64.Transposes [1, 0] S64x64
  slices_S64x128_S64x64_0_64 : S64x128.Slices ![0, 64] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x128 : Shape := ⟨2, ![64, 128]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S128x64 : Shape := ⟨2, ![128, 64]⟩
abbrev S1x64 : Shape := ⟨2, ![1, 64]⟩

abbrev nBuf : Space → Nat
  | .hbm => 24
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x128, .f32⟩
  | .hbm, ⟨4, _⟩ => ⟨S64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .f32⟩
  | .hbm, ⟨15, _⟩ => ⟨S100000x64, .f32⟩
  | .hbm, ⟨16, _⟩ => ⟨S1600000x1, .i32⟩
  | .hbm, ⟨17, _⟩ => ⟨S100000x64, .f32⟩
  | .hbm, ⟨18, _⟩ => ⟨S100000x128, .f32⟩
  | .hbm, ⟨19, _⟩ => ⟨S128x64, .f32⟩
  | .hbm, ⟨20, _⟩ => ⟨S100000x64, .f32⟩
  | .hbm, ⟨21, _⟩ => ⟨S1x64, .f32⟩
  | .hbm, ⟨22, _⟩ => ⟨S100000x64, .f32⟩
  | .hbm, ⟨23, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  concatenates_S100000x64_S100000x64_S100000x128_d1 : Shape.Concatenates [S100000x64, S100000x64] S100000x128 1
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The layer both programs compute, as one function of the argument arrays over the extended reals.

  For node `r` and output channel `j` the result is
      Σ_{k<64} X[r,k]·W[j,k]  +  Σ_{k<64} A[r,k]·W[j,64+k]  +  b[j],
  where `X` is the feature array and `A` the array of features summed over each node's incoming edges.
  The reference reaches it as ONE contraction of length 128 of the joined row `[X[r,:] | A[r,:]]` against row `j` of
  `W`; the kernel as two contractions of length 64 against the two halves of that row, added. The two agree because a
  sum over `Fin (64 + 64)` is the sum over the first 64 indices plus the sum over the last 64 — a fact of any commutative
  monoid, so it holds on the extended reals with no finiteness assumption (`sum_halves`).
-/
import Idealize.ShloMosaic.PureOps.Ideal
import Idealize.ShloMosaic.Lib.ValueIdx

noncomputable section

namespace Cert.Linear

open Idealize.ShloMosaic Idealize.ShloMosaic.ValueIdx

/-- One entry of the layer in the kernel's arrangement: the two weight blocks are given separately, each with the
    contraction index FIRST (`W1[k,j]`, `W2[k,j]`), and the bias as a one-row matrix. Entry `(r, j)` is
    `(Σ_k X[r,k]·W1[k,j] + Σ_k A[r,k]·W2[k,j]) + B[0,j]`. -/
def twoBlocksAt (X A : (⟨2, ![100000, 64]⟩ : Shape).Idx → EReal) (W1 W2 : (⟨2, ![64, 64]⟩ : Shape).Idx → EReal)
    (B : (⟨2, ![1, 64]⟩ : Shape).Idx → EReal) (r : Fin 100000) (j : Fin 64) : EReal :=
  (∑ k : Fin 64, X (ix2 r k) * W1 (ix2 k j) + ∑ k : Fin 64, A (ix2 r k) * W2 (ix2 k j)) + B (ix2 (0 : Fin 1) j)

/-- The whole array in the kernel's arrangement. -/
def twoBlocks (X A : (⟨2, ![100000, 64]⟩ : Shape).Idx → EReal) (W1 W2 : (⟨2, ![64, 64]⟩ : Shape).Idx → EReal)
    (B : (⟨2, ![1, 64]⟩ : Shape).Idx → EReal) : (⟨2, ![100000, 64]⟩ : Shape).Idx → EReal :=
  fun i => twoBlocksAt X A W1 W2 B (i 0) (i 1)

/-- One entry of the layer over the arguments themselves: `W` is the 64×128 weight matrix (output channel first),
    whose columns `0…63` meet the features and `64…127` the aggregated features; `b` the bias vector. Entry `(r, j)`
    is `(Σ_k X[r,k]·W[j,k] + Σ_k A[r,k]·W[j,64+k]) + b[j]`. -/
def layerAt (X A : (⟨2, ![100000, 64]⟩ : Shape).Idx → EReal) (W : (⟨2, ![64, 128]⟩ : Shape).Idx → EReal)
    (b : (⟨1, ![64]⟩ : Shape).Idx → EReal) (r : Fin 100000) (j : Fin 64) : EReal :=
  (∑ k : Fin 64, X (ix2 r k) * W (ix2 j (Fin.castAdd 64 k)) + ∑ k : Fin 64, A (ix2 r k) * W (ix2 j (Fin.natAdd 64 k)))
    + b (ix1 j)

/-- The whole array over the arguments. -/
def layer (X A : (⟨2, ![100000, 64]⟩ : Shape).Idx → EReal) (W : (⟨2, ![64, 128]⟩ : Shape).Idx → EReal)
    (b : (⟨1, ![64]⟩ : Shape).Idx → EReal) : (⟨2, ![100000, 64]⟩ : Shape).Idx → EReal :=
  fun i => layerAt X A W b (i 0) (i 1)

/-- A sum of 128 extended reals is the sum of the first 64 plus the sum of the last 64. Addition on the extended
    reals is commutative and associative (with `⊥ + ⊤ = ⊥`), which is all this uses. -/
theorem sum_halves (f : Fin 128 → EReal) :
    ∑ k : Fin 128, f k = ∑ k : Fin 64, f (Fin.castAdd 64 k) + ∑ k : Fin 64, f (Fin.natAdd 64 k) :=
  Fin.sum_univ_add (a := 64) (b := 64) f

/-- The kernel's arrangement is the layer, once its weight blocks are the two transposed halves of `W` and its bias
    row is `b`. -/
theorem twoBlocks_eq_layer (X A : (⟨2, ![100000, 64]⟩ : Shape).Idx → EReal) (W1 W2 : (⟨2, ![64, 64]⟩ : Shape).Idx → EReal)
    (B : (⟨2, ![1, 64]⟩ : Shape).Idx → EReal) (W : (⟨2, ![64, 128]⟩ : Shape).Idx → EReal) (b : (⟨1, ![64]⟩ : Shape).Idx → EReal)
    (h1 : ∀ (k j : Fin 64), W1 (ix2 k j) = W (ix2 j (Fin.castAdd 64 k)))
    (h2 : ∀ (k j : Fin 64), W2 (ix2 k j) = W (ix2 j (Fin.natAdd 64 k)))
    (hb : ∀ j : Fin 64, B (ix2 (0 : Fin 1) j) = b (ix1 j)) :
    twoBlocks X A W1 W2 B = layer X A W b := by
  have entry : ∀ (r : Fin 100000) (j : Fin 64), twoBlocksAt X A W1 W2 B r j = layerAt X A W b r j := fun r j => by
    unfold twoBlocksAt layerAt
    rw [hb]
    simp only [h1, h2]
  exact funext fun i => entry (i 0) (i 1)

end Cert.Linear

end
-- ==== Proof.RefLayer.lean ====
/-
  The reference's result is the layer (Spec.lean's `Cert.Linear.layer`) of the features, the aggregated features, the
  weight matrix and the bias.

  The reference joins each node's feature row and aggregated row into one row of length 128, contracts it with the
  transposed weight matrix and adds the bias row. Read at entry `(r, j)`:
    * the joined row at column `k < 64` is `X[r,k]`, at column `64 + k` it is `A[r,k]`;
    * the transposed weight matrix at `(k, j)` is `W[j,k]`;
    * the broadcast bias at `(r, j)` is `b[j]`.
  So the contraction over 128 columns splits (`sum_halves`) into the layer's two sums of 64 terms.
  The aggregated array `A` (a gather of feature rows scattered and summed by destination) is carried as the
  reference's own stage for it and never opened.
-/
import proofs.«100542_j1486058684814_1_alg».proof.Proof.Gen.ReferenceIdeal.Read
import proofs.«100542_j1486058684814_1_alg».proof.Proof.Spec

noncomputable section

namespace Cert.ReferenceIdeal.RefLayer

open Cert.ReferenceIdeal Cert.ReferenceIdeal.Gen Cert.ReferenceIdeal.Read Idealize.ShloMosaic Idealize.ShloMosaic.ValueIdx

/-- A column of the first half of the joined row reads the first piece at that column. -/
theorem joined_left (x a : S100000x64.Idx → EReal) (r : Fin 100000) (k : Fin 64) :
    concatenate S100000x128 1 [⟨S100000x64, x⟩, ⟨S100000x64, a⟩] concatenates_S100000x64_S100000x64_S100000x128_d1
      (ix2 r (Fin.castAdd 64 k)) = x (ix2 r k) :=
  concatenate_pair_apply_left (1 : Fin 2) x a concatenates_S100000x64_S100000x64_S100000x128_d1 (ix2 r (Fin.castAdd 64 k)) rfl (ix2 r k)
    (fun b => match b with
      | ⟨0, _⟩ => rfl
      | ⟨1, _⟩ => rfl)

/-- A column of the second half of the joined row reads the second piece at that column less 64. -/
theorem joined_right (x a : S100000x64.Idx → EReal) (r : Fin 100000) (k : Fin 64) :
    concatenate S100000x128 1 [⟨S100000x64, x⟩, ⟨S100000x64, a⟩] concatenates_S100000x64_S100000x64_S100000x128_d1
      (ix2 r (Fin.natAdd 64 k)) = a (ix2 r k) :=
  concatenate_pair_apply_right (1 : Fin 2) x a concatenates_S100000x64_S100000x64_S100000x128_d1 (ix2 r (Fin.natAdd 64 k)) rfl rfl (ix2 r k)
    (fun b => match b with
      | ⟨0, _⟩ => fun _ => rfl
      | ⟨1, _⟩ => fun h => absurd rfl h)
    (by show k.val + 64 = 64 + k.val; omega)

/-- The left operand of the contraction at row `r`, column `k`, is the joined row there. -/
theorem lidx_eq (r : Fin 100000) (j : Fin 64) (k : Fin 128) : lidx_main_v12 (ix2 r j) k = ix2 r k :=
  funext fun a => Fin.ext (by match a with | ⟨0, _⟩ => rfl | ⟨1, _⟩ => rfl)

/-- The transposed weight matrix at `(k, j)` is the weight matrix at `(j, k)`. -/
theorem weight_entry (x3 : (⟨S64x128, .f32⟩ : BufTy).Contents (Elt Ideal)) (r : Fin 100000) (j : Fin 64) (k : Fin 128) :
    val_main_v11 (F := Ideal) x3 (ridx_main_v12 (ix2 r j) k) = x3 (ix2 j k) := by
  rw [val_main_v11_apply]
  exact congrArg x3 (funext fun a => Fin.ext (by match a with | ⟨0, _⟩ => rfl | ⟨1, _⟩ => rfl))

/-- The bias row broadcast down the nodes reads the bias at the output channel. -/
theorem bias_entry (x4 : (⟨S64, .f32⟩ : BufTy).Contents (Elt Ideal)) (r : Fin 100000) (j : Fin 64) :
    val_main_v14 (F := Ideal) x4 (ix2 r j) = x4 (ix1 j) := by
  rw [val_main_v14_apply, val_main_v13_apply]
  exact congrArg x4 (funext fun a => Fin.ext (by match a with | ⟨0, _⟩ => rfl))

/-- THE REFERENCE IS THE LAYER: its last stage, as a function of the arguments, is `layer` of the features, its own
    aggregated-features stage, the weights and the bias. -/
theorem result_eq_layer (x0 : (⟨S100000x64, .f32⟩ : BufTy).Contents (Elt Ideal)) (x1 x2 : (⟨S1600000, .i32⟩ : BufTy).Contents (Elt Ideal))
    (x3 : (⟨S64x128, .f32⟩ : BufTy).Contents (Elt Ideal)) (x4 : (⟨S64, .f32⟩ : BufTy).Contents (Elt Ideal)) :
    val_main_v15 (F := Ideal) x0 x1 x2 x3 x4 = Cert.Linear.layer x0 (val_main_v9 (F := Ideal) x0 x1 x2) x3 x4 := by
  funext i
  obtain ⟨r, j, rfl⟩ : ∃ (r : Fin 100000) (j : Fin 64), i = ix2 r j := ⟨i 0, i 1, eq_ix2 i⟩
  rw [val_main_v15_apply, val_main_v12_apply, bias_entry]
  show _ + _ = Cert.Linear.layerAt _ _ _ _ r j
  unfold Cert.Linear.layerAt
  rw [Cert.Linear.sum_halves]
  refine congrArg (· + x4 (ix1 j)) ?_
  refine congrArg₂ (· + ·) (Finset.sum_congr rfl fun k _ => ?_) (Finset.sum_congr rfl fun k _ => ?_)
  · rw [weight_entry, lidx_eq]
    unfold val_main_v10
    rw [joined_left]
  · rw [weight_entry, lidx_eq]
    unfold val_main_v10
    rw [joined_right]

end Cert.ReferenceIdeal.RefLayer

end
-- ==== Proof.HostArrays.lean ====
/-
  What the kernel's region finds in the arrays its weight and bias windows read.

  Before the region the program cuts the 64×128 weight matrix `W` into its left and right 64×64 halves and transposes
  each, and recasts the bias vector `b` as a one-row matrix. Read at an entry:
    * the first weight block at `(k, j)` is `W[j, k]`;
    * the second weight block at `(k, j)` is `W[j, 64 + k]`;
    * the bias row at `(0, j)` is `b[j]`.
-/
import proofs.«100542_j1486058684814_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostArrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The first weight block is the transposed left half of the weight matrix. -/
theorem first_block_eq (c : Dev nD) :
    (V m c main_v11 : S64x64.Idx → EReal)
      = transpose S64x64 [1, 0] (extractStridedSlice S64x64 ![0, 0] (m ((c : Thread nD τ).loc main_arg3)) slices_S64x128_S64x64_0_0) transposes_S64x64_S64x64_1_0 := by
  dsimp only [V, hostOps0]
  after_results <;> rfl

/-- The second weight block is the transposed right half of the weight matrix. -/
theorem second_block_eq (c : Dev nD) :
    (V m c main_v13 : S64x64.Idx → EReal)
      = transpose S64x64 [1, 0] (extractStridedSlice S64x64 ![0, 64] (m ((c : Thread nD τ).loc main_arg3)) slices_S64x128_S64x64_0_64) transposes_S64x64_S64x64_1_0 := by
  dsimp only [V, hostOps0]
  after_results <;> rfl

/-- The bias row is the bias vector recast as a one-row matrix. -/
theorem bias_row_eq (c : Dev nD) :
    (V m c main_v14 : S1x64.Idx → EReal) = shapeCast S1x64 (m ((c : Thread nD τ).loc main_arg4)) shapeCasts_S64_S1x64 := by
  dsimp only [V, hostOps0]
  after_results <;> rfl

/-- The first weight block at `(k, j)` is `W[j, k]`. -/
theorem first_block_entry (c : Dev nD) (k j : Fin 64) :
    (V m c main_v11 : S64x64.Idx → EReal) (ix2 k j)
      = (m ((c : Thread nD τ).loc main_arg3) : S64x128.Idx → EReal) (ix2 j (Fin.castAdd 64 k)) := by
  rw [first_block_eq]
  refine (transpose_ix2_apply _ transposes_S64x64_S64x64_1_0 k j).trans ?_
  exact slice2_axis1_apply 0 _ slices_S64x128_S64x64_0_0 j k (Fin.castAdd 64 k) (Nat.zero_add _).symm

/-- The second weight block at `(k, j)` is `W[j, 64 + k]`. -/
theorem second_block_entry (c : Dev nD) (k j : Fin 64) :
    (V m c main_v13 : S64x64.Idx → EReal) (ix2 k j)
      = (m ((c : Thread nD τ).loc main_arg3) : S64x128.Idx → EReal) (ix2 j (Fin.natAdd 64 k)) := by
  rw [second_block_eq]
  refine (transpose_ix2_apply _ transposes_S64x64_S64x64_1_0 k j).trans ?_
  exact slice2_axis1_apply 64 _ slices_S64x128_S64x64_0_64 j k (Fin.natAdd 64 k) rfl

/-- The bias row at `(0, j)` is `b[j]`. -/
theorem bias_row_entry (c : Dev nD) (j : Fin 64) :
    (V m c main_v14 : S1x64.Idx → EReal) (ix2 (0 : Fin 1) j)
      = (m ((c : Thread nD τ).loc main_arg4) : S64.Idx → EReal) (ix1 j) := by
  rw [bias_row_eq]
  exact shapeCast_a_1a_apply _ shapeCasts_S64_S1x64 0 j

end Cert.KernelIdeal.HostArrays

end
-- ==== Proof.Payload.lean ====
/-
  What the kernel body stores for one block of 5000 nodes, read at one entry.

  The body loads a block `x0` of feature rows, the matching block `x1` of aggregated rows, the two 64×64 weight
  blocks `x2`, `x3` (contraction index first) and the bias row `x4`, narrows the four matrices to bf16 — the identity
  on extended reals —, multiplies `x0·x2` and `x1·x3` into zero accumulators, adds the two products and then the
  bias row broadcast down the block. At row `p`, channel `q` that is
      (Σ_k x0[p,k]·x2[k,q] + Σ_k x1[p,k]·x3[k,q]) + x4[0,q].
-/
import proofs.«100542_j1486058684814_1_alg».proof.Proof.Gen.KernelIdeal.Skeleton
import proofs.«100542_j1486058684814_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The left factor's row is the output's row. -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left factor's column is the contraction position. -/
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right factor's row is the contraction position. -/
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right factor's column is the output's column. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A [5000,64]·[64,64] product into a zero accumulator, at `(p, q)`: the 64-term sum of row `p` against column `q`. -/
theorem product_entry (l : FVec Ideal S5000x64 .bf16) (w : FVec Ideal S64x64 .bf16) (p : Fin 5000) (q : Fin 64) :
    matmul dot_S5000x64_S64x64_S5000x64_1_0_0_1_n_n none l w (constant (F := Ideal) S5000x64 .f32 0x00000000#32) (ix2 p q)
      = ∑ k : Fin 64, l (ix2 p k) * w (ix2 k q) := by
  refine (Ideal.matmul_constant_zero_apply dot_S5000x64_S64x64_S5000x64_1_0_0_1_n_n none l w (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- THE STORED BLOCK AT AN ENTRY: the two 64-term sums added, plus the bias row's entry. -/
theorem stored_entry (x0 x1 : Vec Ideal S5000x64 .f32) (x2 x3 : Vec Ideal S64x64 .f32) (x4 : Vec Ideal S1x64 .f32)
    (p : Fin 5000) (q : Fin 64) :
    k0_pay1 x0 x1 x2 x3 x4 (ix2 p q)
      = (∑ k : Fin 64, x0 (ix2 p k) * x2 (ix2 k q) + ∑ k : Fin 64, x1 (ix2 p k) * x3 (ix2 k q)) + x4 (ix2 (0 : Fin 1) q) := by
  unfold k0_pay1
  simp only [shapeCast_self]
  rw [addf_apply, addf_apply, product_entry, product_entry, broadcastTo_1b_ab_apply]
  rfl

/-- THE STORED BLOCK IS A BLOCK OF THE LAYER: if the loaded feature and aggregated rows are rows `r` of two arrays
    `X`, `A`, and the loaded weight blocks and bias row agree with `W1`, `W2`, `B` where this entry reads them, then the
    stored entry `(p, q)` is the layer's entry `(r, q)` in the kernel's arrangement. -/
theorem stored_entry_of_reads (x0 x1 : Vec Ideal S5000x64 .f32) (x2 x3 : Vec Ideal S64x64 .f32) (x4 : Vec Ideal S1x64 .f32)
    (X A : (⟨2, ![100000, 64]⟩ : Shape).Idx → EReal) (W1 W2 : (⟨2, ![64, 64]⟩ : Shape).Idx → EReal)
    (B : (⟨2, ![1, 64]⟩ : Shape).Idx → EReal) (r : Fin 100000) (p : Fin 5000) (q : Fin 64)
    (h0 : ∀ k : Fin 64, x0 (ix2 p k) = X (ix2 r k)) (h1 : ∀ k : Fin 64, x1 (ix2 p k) = A (ix2 r k))
    (h2 : ∀ k : Fin 64, x2 (ix2 k q) = W1 (ix2 k q)) (h3 : ∀ k : Fin 64, x3 (ix2 k q) = W2 (ix2 k q))
    (h4 : x4 (ix2 (0 : Fin 1) q) = B (ix2 (0 : Fin 1) q)) :
    k0_pay1 x0 x1 x2 x3 x4 (ix2 p q) = Cert.Linear.twoBlocksAt X A W1 W2 B r q := by
  rw [stored_entry]
  unfold Cert.Linear.twoBlocksAt
  rw [h4]
  simp only [h0, h1, h2, h3]

end Cert.KernelIdeal.Payload

end
-- ==== Proof.Blocks.lean ====
/-
  From the blocks the kernel writes to the whole result array.

  The grid has 20 points; point `t` reads rows `5000·t … 5000·t + 4999` of the feature array and of the aggregated
  array, the two whole weight blocks and the whole bias row, and writes the same rows of the result. So what point `t`
  writes back is block `t` of ONE function of the arrays the region finds — `Cert.Linear.twoBlocks` — and, the 20 blocks
  tiling the 100000 rows, the result array ends holding that function.

  The block reads are stated for ARBITRARY arrays `X`, `A`, `W1`, `W2`, `B` behind the windows: which rows and columns a
  window's block holds is a fact about the window, not about the array's contents, and the aggregated array in
  particular (a scatter-add of 1.6 million gathered rows) is never looked into.
-/
import proofs.«100542_j1486058684814_1_alg».proof.Proof.Gen.KernelIdeal.Value
import proofs.«100542_j1486058684814_1_alg».proof.Proof.Payload
import proofs.«100542_j1486058684814_1_alg».proof.Proof.Spec

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

theorem offsets_zero : (![0, 0] : Fin 2 → Nat) = fun _ => 0 := funext fun a => by fin_cases a <;> rfl

/-- The printed index maps over the grid: the feature, aggregated and result windows are at block row `t`, column
    block 0; the weight and bias windows stay at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Which entries of its array a window's block holds -/

/-- Row `p` of the feature window's block at point `t` is row `5000·t + p` of the array behind it. -/
theorem feature_rows (X : S100000x64.Idx → EReal) (t : Fin cfg0.N) (p : Fin 5000) (k : Fin 64) (r : Fin 100000)
    (hr : r.val = t.val * 5000 + p.val) :
    ((((cfg0.win 0).blk t).view.read (Elt Ideal) X) : S5000x64.Idx → EReal) (ix2 p k) = X (ix2 r k) := by
  obtain ⟨e0, e1, -⟩ := block_indices t
  show X (((cfg0.win 0).blk t).view.emb (ix2 p k : S5000x64.Idx)) = X (ix2 r k)
  refine congrArg X (funext fun a => Fin.ext ?_)
  match a with
  | ⟨0, _⟩ => show win0_0.index t (0 : Fin 2) * 5000 + 1 * p.val = r.val; omega
  | ⟨1, _⟩ => show win0_0.index t (1 : Fin 2) * 64 + 1 * k.val = k.val; omega

/-- Row `p` of the aggregated window's block at point `t` is row `5000·t + p` of the array behind it. -/
theorem aggregated_rows (A : S100000x64.Idx → EReal) (t : Fin cfg0.N) (p : Fin 5000) (k : Fin 64) (r : Fin 100000)
    (hr : r.val = t.val * 5000 + p.val) :
    ((((cfg0.win 1).blk t).view.read (Elt Ideal) A) : S5000x64.Idx → EReal) (ix2 p k) = A (ix2 r k) := by
  obtain ⟨-, -, e0, e1, -⟩ := block_indices t
  show A (((cfg0.win 1).blk t).view.emb (ix2 p k : S5000x64.Idx)) = A (ix2 r k)
  refine congrArg A (funext fun a => Fin.ext ?_)
  match a with
  | ⟨0, _⟩ => show win0_1.index t (0 : Fin 2) * 5000 + 1 * p.val = r.val; omega
  | ⟨1, _⟩ => show win0_1.index t (1 : Fin 2) * 64 + 1 * k.val = k.val; omega

/-- The first weight window's block at every point is the whole array behind it. -/
theorem first_weight_whole (W1 : S64x64.Idx → EReal) (t : Fin cfg0.N) (k j : Fin 64) :
    ((((cfg0.win 2).blk t).view.read (Elt Ideal) W1) : S64x64.Idx → EReal) (ix2 k j) = W1 (ix2 k j) := by
  obtain ⟨-, -, -, -, e0, e1, -⟩ := block_indices t
  show W1 (((cfg0.win 2).blk t).view.emb (ix2 k j : S64x64.Idx)) = W1 (ix2 k j)
  refine congrArg W1 (funext fun a => Fin.ext ?_)
  match a with
  | ⟨0, _⟩ => show win0_2.index t (0 : Fin 2) * 64 + 1 * k.val = k.val; omega
  | ⟨1, _⟩ => show win0_2.index t (1 : Fin 2) * 64 + 1 * j.val = j.val; omega

/-- The second weight window's block at every point is the whole array behind it. -/
theorem second_weight_whole (W2 : S64x64.Idx → EReal) (t : Fin cfg0.N) (k j : Fin 64) :
    ((((cfg0.win 3).blk t).view.read (Elt Ideal) W2) : S64x64.Idx → EReal) (ix2 k j) = W2 (ix2 k j) := by
  obtain ⟨-, -, -, -, -, -, e0, e1, -⟩ := block_indices t
  show W2 (((cfg0.win 3).blk t).view.emb (ix2 k j : S64x64.Idx)) = W2 (ix2 k j)
  refine congrArg W2 (funext fun a => Fin.ext ?_)
  match a with
  | ⟨0, _⟩ => show win0_3.index t (0 : Fin 2) * 64 + 1 * k.val = k.val; omega
  | ⟨1, _⟩ => show win0_3.index t (1 : Fin 2) * 64 + 1 * j.val = j.val; omega

/-- The bias window's block at every point is the whole one-row array behind it. -/
theorem bias_whole (B : S1x64.Idx → EReal) (t : Fin cfg0.N) (j : Fin 64) :
    ((((cfg0.win 4).blk t).view.read (Elt Ideal) B) : S1x64.Idx → EReal) (ix2 (0 : Fin 1) j) = B (ix2 (0 : Fin 1) j) := by
  obtain ⟨-, -, -, -, -, -, -, -, e0, e1, -⟩ := block_indices t
  show B (((cfg0.win 4).blk t).view.emb (ix2 (0 : Fin 1) j : S1x64.Idx)) = B (ix2 (0 : Fin 1) j)
  refine congrArg B (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 64 + 1 * j.val = j.val; omega

/-- Entry `(p, q)` of the result block at point `t` sits at `(5000·t + p, q)` of the result array. -/
theorem result_position (t : Fin cfg0.N) (p : Fin 5000) (q : Fin 64) (r : Fin 100000) (hr : r.val = t.val * 5000 + p.val) :
    ((cfg0.win 5).blk t).view.emb (ix2 p q : S5000x64.Idx) = (ix2 r q : S100000x64.Idx) := by
  obtain ⟨-, -, -, -, -, -, -, -, -, -, e0, e1⟩ := block_indices t
  funext a
  apply Fin.ext
  match a with
  | ⟨0, _⟩ => show win0_5.index t (0 : Fin 2) * 5000 + 1 * p.val = r.val; omega
  | ⟨1, _⟩ => show win0_5.index t (1 : Fin 2) * 64 + 1 * q.val = q.val; omega

/-! ## What a point stores is its block of the layer -/

/-- For any arrays behind the five input windows: the body's stored block, computed from the windows' blocks at point
    `t`, is block `t` of the layer (in the kernel's arrangement) of those arrays. -/
theorem stored_block (X A : S100000x64.Idx → EReal) (W1 W2 : S64x64.Idx → EReal) (B : S1x64.Idx → EReal) (t : Fin cfg0.N) :
    (k0_pay1 (((cfg0.win 0).blk t).view.read (Elt Ideal) X) (((cfg0.win 1).blk t).view.read (Elt Ideal) A) (((cfg0.win 2).blk t).view.read (Elt Ideal) W1) (((cfg0.win 3).blk t).view.read (Elt Ideal) W2) (((cfg0.win 4).blk t).view.read (Elt Ideal) B) : S5000x64.Idx → EReal)
      = ((cfg0.win 5).blk t).view.read (Elt Ideal) (Cert.Linear.twoBlocks X A W1 W2 B) := by
  refine funext fun (y : S5000x64.Idx) => ?_
  obtain ⟨p, q, rfl⟩ : ∃ (p : Fin 5000) (q : Fin 64), y = ix2 p q := ⟨y 0, y 1, eq_ix2 y⟩
  have hN : cfg0.N = 20 := N_0
  have ht : t.val < cfg0.N := t.isLt
  have hp : p.val < 5000 := p.isLt
  obtain ⟨r, hr⟩ : ∃ r : Fin 100000, r.val = t.val * 5000 + p.val := ⟨⟨t.val * 5000 + p.val, by omega⟩, rfl⟩
  show _ = Cert.Linear.twoBlocks X A W1 W2 B (((cfg0.win 5).blk t).view.emb (ix2 p q : S5000x64.Idx))
  rw [result_position t p q r hr]
  exact Payload.stored_entry_of_reads _ _ _ _ _ X A W1 W2 B r p q
    (fun k => feature_rows X t p k r hr) (fun k => aggregated_rows A t p k r hr)
    (fun k => first_weight_whole W1 t k q) (fun k => second_weight_whole W2 t k q) (bias_whole B t q)

section Run

variable (m : (ℓ : Loc nD τ sig) → Buf (Elt Ideal) ℓ) (ρ : Dev nD → PrngReg)

/-- WHAT POINT `t` WRITES BACK is block `t` of the layer, in the kernel's arrangement, of the arrays the region finds
    behind its five input windows. -/
theorem written_block (c : Dev nD) (t : Fin cfg0.N) :
    (dats m 0 c).flushed 5 t = ((cfg0.win 5).blk t).view.read (Elt Ideal) (Cert.Linear.twoBlocks (V m c (Pipeline.arrRef spec0 0)) (V m c (Pipeline.arrRef spec0 1)) (V m c (Pipeline.arrRef spec0 2)) (V m c (Pipeline.arrRef spec0 3)) (V m c (Pipeline.arrRef spec0 4))) := by
  rw [flushed5]
  unfold out0_5
  rw [View.canon_unit_zero offsets_zero]
  simp only [View.ld_unit_zero (S := S5000x64) offsets_zero, View.ld_unit_zero (S := S64x64) offsets_zero,
    View.ld_unit_zero (S := S1x64) offsets_zero]
  unfold iblk
  exact stored_block (V m c (Pipeline.arrRef spec0 0)) (V m c (Pipeline.arrRef spec0 1)) (V m c (Pipeline.arrRef spec0 2)) (V m c (Pipeline.arrRef spec0 3)) (V m c (Pipeline.arrRef spec0 4)) t

/-- An index of the result array is in point `t`'s block iff each coordinate is in the block's range on its axis. -/
theorem mem_block (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v15).slice (win0_5.rect t)).set ↔ _
  rw [View.set_slice_whole, Rect.mem_set_unit]
  exact Iff.rfl

/-- Every index of the result array is in the block of the point its row falls under: row `n` is in block `n / 5000`. -/
theorem blocks_cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, -, -, -, -, e0, e1⟩ := block_indices t
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- THE RESULT ARRAY after the run is the layer, in the kernel's arrangement, of the arrays the region finds. -/
theorem final_array (c : Dev nD) : (dats m 0 c).arrAt 5 cfg0.N = (Cert.Linear.twoBlocks (V m c (Pipeline.arrRef spec0 0)) (V m c (Pipeline.arrRef spec0 1)) (V m c (Pipeline.arrRef spec0 2)) (V m c (Pipeline.arrRef spec0 3)) (V m c (Pipeline.arrRef spec0 4))) :=
  (dats m 0 c).arrAt_eq_of_cover 5 (Cert.Linear.twoBlocks (V m c (Pipeline.arrRef spec0 0)) (V m c (Pipeline.arrRef spec0 1)) (V m c (Pipeline.arrRef spec0 2)) (V m c (Pipeline.arrRef spec0 3)) (V m c (Pipeline.arrRef spec0 4))) (fun t _ => written_block m c t) blocks_cover

/-- The run, read: the result array at that function, the arguments unchanged. -/
theorem run : θ_run defs (onTc (τ := τ) (main (F := Ideal))) ⟨m, fun _ => 0, ρ⟩ fun r => ∀ c : Dev nD,
      r.2.mem ((c : Thread nD τ).loc main_v15) = (Cert.Linear.twoBlocks (V m c (Pipeline.arrRef spec0 0)) (V m c (Pipeline.arrRef spec0 1)) (V m c (Pipeline.arrRef spec0 2)) (V m c (Pipeline.arrRef spec0 3)) (V m c (Pipeline.arrRef spec0 4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_array m c), (h c).2⟩) (run_blocks m ρ)

end Run

end Cert.KernelIdeal.Blocks

end
-- ==== Proof.lean ====
/-
  A graph layer: every node's features are joined with the sum of the features of the nodes that send it an edge, and
  the joined row of length 128 goes through one linear map to 64 output channels,
      out[r, j] = Σ_{k<128} [X | A][r, k] · W[j, k] + b[j],     A[d, :] = Σ_{edges e with dst e = d} X[src e, :].

  The reference computes it that way. The kernel computes the aggregated array `A` by the same gather and scatter-add,
  then never forms the joined row: it splits `W` into its left and right 64×64 halves and computes
      out[r, j] = (Σ_{k<64} X[r, k] · W[j, k] + Σ_{k<64} A[r, k] · W[j, 64 + k]) + b[j]
  block by block, 5000 nodes at a time, with the operands narrowed to bf16 on the way into the products.

  Over the extended reals the narrowing is the identity and the two formulas are one: a sum over 128 indices is the
  sum over the first 64 plus the sum over the last 64 (Spec.lean `sum_halves`), which needs only that addition of
  extended reals is commutative and associative — no finiteness of the inputs is used, and nothing about which nodes
  the edge arrays name: the aggregated array is the same function of the arguments on both sides and is never opened.

  The modules: Spec.lean states the layer and the splitting law; RefLayer.lean reads the reference's result as the
  layer; Payload.lean reads one entry of the block the kernel body stores; HostArrays.lean reads the weight halves
  and the bias row the kernel's region finds; Blocks.lean goes from the 20 written blocks to the whole result array.
  Here the two sides are set beside each other and the five claims assembled. The kernel's idealized form rewrites
  none of its operations, so the claim relating the two is trivial; the frames are the generated ones (the reference's
  is its generated run with the result dropped).
-/
import proofs.«100542_j1486058684814_1_alg».proof.Defs
import proofs.«100542_j1486058684814_1_alg».proof.Proof.Gen.Kernel
import proofs.«100542_j1486058684814_1_alg».proof.Proof.Gen.Kernel.Skeleton
import proofs.«100542_j1486058684814_1_alg».proof.Proof.Gen.Kernel.Launch
import proofs.«100542_j1486058684814_1_alg».proof.Proof.Gen.Kernel.Points
import proofs.«100542_j1486058684814_1_alg».proof.Proof.Gen.Kernel.Frame
import proofs.«100542_j1486058684814_1_alg».proof.Proof.Gen.KernelIdeal
import proofs.«100542_j1486058684814_1_alg».proof.Proof.Gen.KernelIdeal.Skeleton
import proofs.«100542_j1486058684814_1_alg».proof.Proof.Gen.KernelIdeal.Launch
import proofs.«100542_j1486058684814_1_alg».proof.Proof.Gen.KernelIdeal.Points
import proofs.«100542_j1486058684814_1_alg».proof.Proof.Gen.KernelIdeal.Frame
import proofs.«100542_j1486058684814_1_alg».proof.Proof.Gen.ReferenceIdeal
import proofs.«100542_j1486058684814_1_alg».proof.Proof.Gen.KernelIdeal.Value
import proofs.«100542_j1486058684814_1_alg».proof.Proof.Gen.ReferenceIdeal.Run
import proofs.«100542_j1486058684814_1_alg».proof.Proof.Gen.ReferenceIdeal.Read
import proofs.«100542_j1486058684814_1_alg».proof.Proof.Gen.Pre_finite_inputs
import proofs.«100542_j1486058684814_1_alg».proof.Proof.Spec
import proofs.«100542_j1486058684814_1_alg».proof.Proof.RefLayer
import proofs.«100542_j1486058684814_1_alg».proof.Proof.HostArrays
import proofs.«100542_j1486058684814_1_alg».proof.Proof.Blocks
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem

/-! ## The kernel's result array is the layer of the arguments -/

section KernelSide

open Cert.KernelIdeal Cert.KernelIdeal.Gen Idealize.ShloMosaic.StableHlo

variable (m : (ℓ : Loc nD τ sig) → Buf (Elt Ideal) ℓ)

/-- The aggregated array the kernel's region finds is the reference's aggregated stage of the same three arguments:
    both programs apply the same index wrap-around, gather and scatter-add, operation for operation. -/
theorem aggregated_eq (c : Dev nD) :
    (V m c main_v9 : S100000x64.Idx → EReal)
      = Cert.ReferenceIdeal.Read.val_main_v9 (F := Ideal) (m ((c : Thread nD τ).loc main_arg0))
          (m ((c : Thread nD τ).loc main_arg1)) (m ((c : Thread nD τ).loc main_arg2)) := by
  dsimp only [V, hostOps0]
  after_results <;> rfl

/-- What the kernel leaves in the result array — the layer in its own arrangement, of the arrays its region finds —
    is the layer of the arguments: the features are the feature argument, the weight blocks the two transposed
    halves of the weight argument, the bias row the bias argument. -/
theorem kernel_layer (c : Dev nD) :
    Cert.Linear.twoBlocks (V m c (Pipeline.arrRef spec0 0)) (V m c (Pipeline.arrRef spec0 1)) (V m c (Pipeline.arrRef spec0 2))
        (V m c (Pipeline.arrRef spec0 3)) (V m c (Pipeline.arrRef spec0 4))
      = Cert.Linear.layer (m ((c : Thread nD τ).loc main_arg0))
          (Cert.ReferenceIdeal.Read.val_main_v9 (F := Ideal) (m ((c : Thread nD τ).loc main_arg0))
            (m ((c : Thread nD τ).loc main_arg1)) (m ((c : Thread nD τ).loc main_arg2)))
          (m ((c : Thread nD τ).loc main_arg3)) (m ((c : Thread nD τ).loc main_arg4)) := by
  have e0 : (V m c (Pipeline.arrRef spec0 0) : S100000x64.Idx → EReal) = m ((c : Thread nD τ).loc main_arg0) :=
    V_main_arg0 m c
  have e1 : (V m c (Pipeline.arrRef spec0 1) : S100000x64.Idx → EReal)
      = Cert.ReferenceIdeal.Read.val_main_v9 (F := Ideal) (m ((c : Thread nD τ).loc main_arg0))
          (m ((c : Thread nD τ).loc main_arg1)) (m ((c : Thread nD τ).loc main_arg2)) := aggregated_eq m c
  rw [e0, e1]
  exact Cert.Linear.twoBlocks_eq_layer _ _ _ _ _ _ _ (Cert.KernelIdeal.HostArrays.first_block_entry m c)
    (Cert.KernelIdeal.HostArrays.second_block_entry m c) (Cert.KernelIdeal.HostArrays.bias_row_entry m c)

end KernelSide

/-! ## The claims -/

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals, no operation rewritten: there is
    nothing to restate. -/
theorem preserves : Cert.preserves_Kernel_KernelIdeal := trivial

/-- Over the extended reals, from memories that agree on the five arguments, the kernel's result array and the
    reference's both end at the layer of those arguments. -/
theorem algebraic : Cert.algebraic_KernelIdeal_ReferenceIdeal := by
  intro m ρ m' ρ' _ hagree
  refine ⟨fun c => Cert.Linear.layer (m ((c.tc : Thread Cert.KernelIdeal.nD Cert.KernelIdeal.τ).loc Cert.KernelIdeal.main_arg0))
      (Cert.ReferenceIdeal.Read.val_main_v9 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun r h c => ⟨(h c).1.trans (kernel_layer m c), (h c).2⟩)
      (Cert.KernelIdeal.Blocks.run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v15_eq, Cert.ReferenceIdeal.RefLayer.result_eq_layer,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
